-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S50000 : Shape := ⟨1, ![50000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : FVec F S256x256 .f32) (main_arg2 : FVec F S256 .f32) (main_arg3 : FVec F S256x128 .f32) (main_arg4 : FVec F S128 .f32) (main_arg5 : IVec S2x800000 32) (main_arg6 : IVec S50000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S2000x256 : Shape := ⟨2, ![2000, 256]⟩
abbrev S800000x256 : Shape := ⟨2, ![800000, 256]⟩
abbrev S50000x1 : Shape := ⟨2, ![50000, 1]⟩
abbrev S1x256 : Shape := ⟨2, ![1, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩
abbrev S64 : Shape := ⟨1, ![64]⟩
abbrev S64x128 : Shape := ⟨2, ![64, 128]⟩
abbrev S64x1 : Shape := ⟨2, ![64, 1]⟩

abbrev nBuf : Space → Nat
  | .hbm => 131
  | .vmem => 10
  | .smem => 0
  | _ => 0

abbrev hbmTy0_0 (i : Nat) : BufTy := match i % 128 with
  | 0 => ⟨S50000x256, .f32⟩
  | 1 => ⟨S256x256, .f32⟩
  | 2 => ⟨S256, .f32⟩
  | 3 => ⟨S256x128, .f32⟩
  | 4 => ⟨S128, .f32⟩
  | 5 => ⟨S2x800000, .i32⟩
  | 6 => ⟨S50000, .i32⟩
  | 7 => ⟨S1x800000, .i32⟩
  | 8 => ⟨S800000, .i32⟩
  | 9 => ⟨S1x800000, .i32⟩
  | 10 => ⟨S800000, .i32⟩
  | 11 => ⟨S_, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S_, .f32⟩
  | 22 => ⟨S800000, .f32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S50000x256, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x256, .f32⟩
  | 57 => ⟨S800000x1, .f32⟩
  | 58 => ⟨S800000x256, .f32⟩
  | 59 => ⟨S800000x256, .f32⟩
  | 60 => ⟨S_, .f32⟩
  | 61 => ⟨S50000x256, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S50000x256, .f32⟩
  | 71 => ⟨S_, .f32⟩
  | 72 => ⟨S50000, .f32⟩
  | 73 => ⟨S50000, .f32⟩
  | 74 => ⟨S50000x1, .f32⟩
  | 75 => ⟨S50000x256, .f32⟩
  | 76 => ⟨S50000x256, .f32⟩
  | 77 => ⟨S50000x256, .f32⟩
  | 78 => ⟨S1x256, .f32⟩
  | 79 => ⟨S50000x256, .f32⟩
  | 80 => ⟨S50000x256, .f32⟩
  | 81 => ⟨S50000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S800000x1, .f32⟩
  | 92 => ⟨S800000x128, .f32⟩
  | 93 => ⟨S800000x128, .f32⟩
  | 94 => ⟨S_, .f32⟩
  | 95 => ⟨S50000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S50000x128, .f32⟩
  | 105 => ⟨S_, .f32⟩
  | 106 => ⟨S50000, .f32⟩
  | 107 => ⟨S50000, .f32⟩
  | 108 => ⟨S50000x1, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000, .f32⟩
  | 117 => ⟨S_, .f32⟩
  | 118 => ⟨S64, .f32⟩
  | 119 => ⟨S50000x1, .i32⟩
  | 120 => ⟨S64, .f32⟩
  | 121 => ⟨S_, .f32⟩
  | 122 => ⟨S64x128, .f32⟩
  | 123 => ⟨S50000x1, .i32⟩
  | 124 => ⟨S64x128, .f32⟩
  | 125 => ⟨S_, .f32⟩
  | 126 => ⟨S64, .f32⟩
  | 127 => ⟨S64, .f32⟩
  | _ => ⟨S50000x256, .f32⟩

abbrev hbmTy0_1 (i : Nat) : BufTy := match i % 128 with
  | 0 => ⟨S64x1, .f32⟩
  | 1 => ⟨S64x128, .f32⟩
  | 2 => ⟨S64x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_13 : Ref sig .tc := ⟨.hbm, 82, rfl⟩
abbrev main_v60 : Ref sig .tc := ⟨.hbm, 83, rfl⟩
abbrev main_v61 : Ref sig .tc := ⟨.hbm, 84, rfl⟩
abbrev main_c_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_c_16 : Ref sig .tc := ⟨.hbm, 96, rfl⟩
abbrev main_v71 : Ref sig .tc := ⟨.hbm, 97, rfl⟩
abbrev main_v72 : Ref sig .tc := ⟨.hbm, 98, rfl⟩
abbrev main_c_17 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_18 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_19 : Ref sig .tc := ⟨.hbm, 115, rfl⟩
abbrev main_v87 : Ref sig .tc := ⟨.hbm, 116, rfl⟩
abbrev main_cst_20 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_21 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_22 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩
abbrev S64 : Shape := ⟨1, ![64]⟩
abbrev S64x128 : Shape := ⟨2, ![64, 128]⟩
abbrev S64x1 : Shape := ⟨2, ![64, 1]⟩

abbrev nBuf : Space → Nat
  | .hbm => 182
  | .vmem => 0
  | .smem => 0
  | _ => 0

abbrev hbmTy0_0 (i : Nat) : BufTy := match i % 128 with
  | 0 => ⟨S50000x256, .f32⟩
  | 1 => ⟨S256x256, .f32⟩
  | 2 => ⟨S256, .f32⟩
  | 3 => ⟨S256x128, .f32⟩
  | 4 => ⟨S128, .f32⟩
  | 5 => ⟨S2x800000, .i32⟩
  | 6 => ⟨S50000, .i32⟩
  | 7 => ⟨S1x800000, .i32⟩
  | 8 => ⟨S800000, .i32⟩
  | 9 => ⟨S1x800000, .i32⟩
  | 10 => ⟨S800000, .i32⟩
  | 11 => ⟨S50000x256, .f32⟩
  | 12 => ⟨S_, .f32⟩
  | 13 => ⟨S50000, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S_, .f32⟩
  | 23 => ⟨S800000, .f32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .f32⟩
  | 49 => ⟨S50000x256, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x256, .f32⟩
  | 59 => ⟨S800000x1, .f32⟩
  | 60 => ⟨S800000x256, .f32⟩
  | 61 => ⟨S800000x256, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S50000x256, .f32⟩
  | 71 => ⟨S_, .f32⟩
  | 72 => ⟨S50000, .f32⟩
  | 73 => ⟨S50000, .f32⟩
  | 74 => ⟨S50000x1, .f32⟩
  | 75 => ⟨S50000x256, .f32⟩
  | 76 => ⟨S50000x256, .f32⟩
  | 77 => ⟨S50000x256, .f32⟩
  | 78 => ⟨S1x256, .f32⟩
  | 79 => ⟨S50000x256, .f32⟩
  | 80 => ⟨S50000x256, .f32⟩
  | 81 => ⟨S_, .f32⟩
  | 82 => ⟨S50000x256, .f32⟩
  | 83 => ⟨S50000x256, .i1⟩
  | 84 => ⟨S_, .f32⟩
  | 85 => ⟨S50000x256, .f32⟩
  | 86 => ⟨S50000x256, .i1⟩
  | 87 => ⟨S_, .f32⟩
  | 88 => ⟨S_, .f32⟩
  | 89 => ⟨S50000x256, .f32⟩
  | 90 => ⟨S50000x256, .f32⟩
  | 91 => ⟨S50000x256, .f32⟩
  | 92 => ⟨S_, .f32⟩
  | 93 => ⟨S50000x256, .f32⟩
  | 94 => ⟨S50000x256, .f32⟩
  | 95 => ⟨S50000x256, .f32⟩
  | 96 => ⟨S50000x128, .f32⟩
  | 97 => ⟨S_, .f32⟩
  | 98 => ⟨S50000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S_, .f32⟩
  | 108 => ⟨S800000, .f32⟩
  | 109 => ⟨S50000, .f32⟩
  | 110 => ⟨S_, .f32⟩
  | 111 => ⟨S50000, .f32⟩
  | 112 => ⟨S50000, .f32⟩
  | 113 => ⟨S50000, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000, .f32⟩
  | 123 => ⟨S_, .i32⟩
  | 124 => ⟨S800000, .i32⟩
  | 125 => ⟨S800000, .i1⟩
  | 126 => ⟨S_, .i32⟩
  | 127 => ⟨S800000, .i32⟩
  | _ => ⟨S50000x256, .f32⟩

abbrev hbmTy0_1 (i : Nat) : BufTy := match i % 128 with
  | 0 => ⟨S800000, .i32⟩
  | 1 => ⟨S800000, .i32⟩
  | 2 => ⟨S800000x1, .i32⟩
  | 3 => ⟨S800000, .f32⟩
  | 4 => ⟨S800000, .f32⟩
  | 5 => ⟨S_, .f32⟩
  | 6 => ⟨S50000x128, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x128, .f32⟩
  | 16 => ⟨S800000x1, .f32⟩
  | 17 => ⟨S800000x128, .f32⟩
  | 18 => ⟨S800000x128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S50000x128, .f32⟩
  | 28 => ⟨S_, .f32⟩
  | 29 => ⟨S50000, .f32⟩
  | 30 => ⟨S50000, .f32⟩
  | 31 => ⟨S50000x1, .f32⟩
  | 32 => ⟨S50000x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000, .f32⟩
  | 40 => ⟨S_, .f32⟩
  | 41 => ⟨S64, .f32⟩
  | 42 => ⟨S50000x1, .i32⟩
  | 43 => ⟨S64, .f32⟩
  | 44 => ⟨S_, .f32⟩
  | 45 => ⟨S64x128, .f32⟩
  | 46 => ⟨S50000x1, .i32⟩
  | 47 => ⟨S64x128, .f32⟩
  | 48 => ⟨S_, .f32⟩
  | 49 => ⟨S64, .f32⟩
  | 50 => ⟨S64, .f32⟩
  | 51 => ⟨S64x1, .f32⟩
  | 52 => ⟨S64x128, .f32⟩
  | 53 => ⟨S64x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_cst_0 : Ref sig .tc := ⟨.hbm, 84, rfl⟩
abbrev main_call0_v2 : Ref sig .tc := ⟨.hbm, 85, rfl⟩
abbrev main_call0_v3 : Ref sig .tc := ⟨.hbm, 86, rfl⟩
abbrev main_call0_cst_1 : Ref sig .tc := ⟨.hbm, 87, rfl⟩
abbrev main_call0_call0_v0 : Ref sig .tc := ⟨.hbm, 88, rfl⟩
abbrev main_call0_call0_v1 : Ref sig .tc := ⟨.hbm, 89, rfl⟩
abbrev main_call0_v4 : Ref sig .tc := ⟨.hbm, 90, rfl⟩
abbrev main_call0_v5 : Ref sig .tc := ⟨.hbm, 91, rfl⟩
abbrev main_call0_cst_2 : Ref sig .tc := ⟨.hbm, 92, rfl⟩
abbrev main_call0_v6 : Ref sig .tc := ⟨.hbm, 93, rfl⟩
abbrev main_call0_v7 : Ref sig .tc := ⟨.hbm, 94, rfl⟩
abbrev main_v59 : Ref sig .tc := ⟨.hbm, 95, rfl⟩
abbrev main_v60 : Ref sig .tc := ⟨.hbm, 96, rfl⟩
abbrev main_cst_13 : Ref sig .tc := ⟨.hbm, 97, rfl⟩
abbrev main_v61 : Ref sig .tc := ⟨.hbm, 98, rfl⟩
abbrev main_c_14 : Ref sig .tc := ⟨.hbm, 99, rfl⟩
abbrev main_v62 : Ref sig .tc := ⟨.hbm, 100, rfl⟩
abbrev main_v63 : Ref sig .tc := ⟨.hbm, 101, rfl⟩
abbrev main_c_15 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_16 : Ref sig .tc := ⟨.hbm, 107, rfl⟩
abbrev main_v68 : Ref sig .tc := ⟨.hbm, 108, rfl⟩
abbrev main_v69 : Ref sig .tc := ⟨.hbm, 109, rfl⟩
abbrev main_cst_17 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_c_18 : Ref sig .tc := ⟨.hbm, 114, rfl⟩
abbrev main_v73 : Ref sig .tc := ⟨.hbm, 115, rfl⟩
abbrev main_v74 : Ref sig .tc := ⟨.hbm, 116, rfl⟩
abbrev main_c_19 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_20 : Ref sig .tc := ⟨.hbm, 123, rfl⟩
abbrev main_v80 : Ref sig .tc := ⟨.hbm, 124, rfl⟩
abbrev main_v81 : Ref sig .tc := ⟨.hbm, 125, rfl⟩
abbrev main_c_21 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_22 : Ref sig .tc := ⟨.hbm, 133, rfl⟩
abbrev main_v88 : Ref sig .tc := ⟨.hbm, 134, rfl⟩
abbrev main_c_23 : Ref sig .tc := ⟨.hbm, 135, rfl⟩
abbrev main_v89 : Ref sig .tc := ⟨.hbm, 136, rfl⟩
abbrev main_v90 : Ref sig .tc := ⟨.hbm, 137, rfl⟩
abbrev main_c_24 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_25 : Ref sig .tc := ⟨.hbm, 147, rfl⟩
abbrev main_v99 : Ref sig .tc := ⟨.hbm, 148, rfl⟩
abbrev main_v100 : Ref sig .tc := ⟨.hbm, 149, rfl⟩
abbrev main_c_26 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_27 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_28 : Ref sig .tc := ⟨.hbm, 166, rfl⟩
abbrev main_v115 : Ref sig .tc := ⟨.hbm, 167, rfl⟩
abbrev main_cst_29 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_30 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_31 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S800000x1_S800000x256_0_1 : S800000x1.BroadcastsInDim S800000x256 (![0, 1] : Fin 2 → Fin S800000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S50000x256_S256x256_S50000x256_1_0_0_1_n_n_wf : DotDims.WF S50000x256 S256x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf

class Facts : Prop extends Facts₀ where

variable [Facts]
-- ==== Proof.KerRun.lean ====
/-
  The idealized kernel program's run, with its result named.

  The entry point is five segments: a stretch of host operations, the first row-tiled product, a second stretch, the
  second product, a last stretch. The library's theorem for such a chain of segments gives, from any memory, that
  every weakly fair execution ends without a fault with every unscoped buffer at the last segment boundary's contents
  (the generated fold of the five segments over the launch memory, W5). Read at the result buffer this is the
  program's result; read at an argument it is the argument as launched.
-/
import proofs.«126160_j3848290697594_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_value : θ_run defs (onTc (τ := τ) (main (F := F))) ⟨m, fun _ => 0, ρ⟩ (fun r => ∀ c : Dev nD,
      r.2.mem ((c.tc : Thread nD τ).loc main_v98) = W5 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v98 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Hand

end
-- ==== Proof.RefLine.lean ====
/-
  The reference program as ONE straight line of host operations.

  The reference's entry point is a sequence of array operations: the two index rows of the edge list, the first dense
  product x·W1, the degree of every node (a scatter-add of ones at the destinations, plus the self loop), its
  inverse square root gathered at both ends of every edge, the normalised neighbour sum of the first layer with its self
  term and bias, the exponential linear unit (written by the array library as a function of its own, with two selections
  around an exponential-minus-one), the second dense product, the same degree computation once more, the second layer's
  neighbour sum, and the mean over each graph of the batch. Listed here in program order, the unit's body inlined at its
  call over the call's buffers, they are what the entry point runs (main_eq), so every buffer ends at the fold of
  these operations over the launch contents (run).
-/
import proofs.«126160_j3848290697594_1_alg».proof.ReferenceIdeal
import proofs.«126160_j3848290697594_1_alg».proof.Proof.Gen.ReferenceIdeal
import Idealize.ShloMosaic.Lib.StableHlo.Run
import Idealize.ShloMosaic.Lib.Pipeline.Regions

noncomputable section

namespace Cert.ReferenceIdeal.Line

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The reference's operations, in order. -/
abbrev rops : List (HloOp τ sig (Elt F)) :=
  [ -- the edge list's two rows: sources and destinations
    unary main_arg5 main_v0 (extractStridedSlice S1x800000 ![0, 0] · slices_S2x800000_S1x800000_0_0),
    reshape main_v0 main_v1 rfl shapeCasts_S1x800000_S800000,
    unary main_arg5 main_v2 (extractStridedSlice S1x800000 ![1, 0] · slices_S2x800000_S1x800000_1_0),
    reshape main_v2 main_v3 rfl shapeCasts_S1x800000_S800000,
    -- the first dense product
    binary main_arg0 main_arg1 main_v4 (fun l r => Host.dotGeneral dot_S50000x256_S256x256_S50000x256_1_0_0_1_n_n none l r),
    -- the degrees: ones added at the destinations, plus one
    nullary main_cst (constant S_ .f32 0x00000000#32),
    unary main_cst main_v5 (broadcastInDim S50000 ![] bcast_S_S50000),
    nullary main_c (constantI S_ 32 0#32),
    unary main_c main_v6 (broadcastInDim S800000 ![] bcast_S_S800000),
    binary main_v3 main_v6 main_v7 (cmpi .slt),
    nullary main_c_0 (constantI S_ 32 50000#32),
    unary main_c_0 main_v8 (broadcastInDim S800000 ![] bcast_S_S800000),
    binary main_v3 main_v8 main_v9 addi,
    ternary main_v7 main_v9 main_v3 main_v10 select,
    unary main_v10 main_v11 (broadcastInDim S800000x1 ![0] bcast_S800000_S800000x1_0),
    nullary main_cst_1 (constant S_ .f32 0x3F800000#32),
    unary main_cst_1 main_v12 (broadcastInDim S800000 ![] bcast_S_S800000),
    ternary main_v5 main_v11 main_v12 main_v13 (fun x i u => Host.scatterAdd scatter_S50000_S800000x1_S800000_n_0_0_1 x i u),
    nullary main_cst_2 (constant S_ .f32 0x3F800000#32),
    unary main_cst_2 main_v14 (broadcastInDim S50000 ![] bcast_S_S50000),
    binary main_v13 main_v14 main_v15 addf,
    unary main_v15 main_v16 Host.rsqrt,
    -- the edge weights: the inverse root degree at the source times that at the destination
    nullary main_c_3 (constantI S_ 32 0#32),
    unary main_c_3 main_v17 (broadcastInDim S800000 ![] bcast_S_S800000),
    binary main_v1 main_v17 main_v18 (cmpi .slt),
    nullary main_c_4 (constantI S_ 32 50000#32),
    unary main_c_4 main_v19 (broadcastInDim S800000 ![] bcast_S_S800000),
    binary main_v1 main_v19 main_v20 addi,
    ternary main_v18 main_v20 main_v1 main_v21 select,
    unary main_v21 main_v22 (broadcastInDim S800000x1 ![0] bcast_S800000_S800000x1_0),
    binary main_v16 main_v22 main_v23 (fun x i => Host.gather gather_S50000_S800000x1_S800000_n_0_n_n_0_1_1 x i),
    nullary main_c_5 (constantI S_ 32 0#32),
    unary main_c_5 main_v24 (broadcastInDim S800000 ![] bcast_S_S800000),
    binary main_v3 main_v24 main_v25 (cmpi .slt),
    nullary main_c_6 (constantI S_ 32 50000#32),
    unary main_c_6 main_v26 (broadcastInDim S800000 ![] bcast_S_S800000),
    binary main_v3 main_v26 main_v27 addi,
    ternary main_v25 main_v27 main_v3 main_v28 select,
    unary main_v28 main_v29 (broadcastInDim S800000x1 ![0] bcast_S800000_S800000x1_0),
    binary main_v16 main_v29 main_v30 (fun x i => Host.gather gather_S50000_S800000x1_S800000_n_0_n_n_0_1_1 x i),
    binary main_v23 main_v30 main_v31 mulf,
    -- the first layer's neighbour sum, self term and bias
    nullary main_cst_7 (constant S_ .f32 0x00000000#32),
    unary main_cst_7 main_v32 (broadcastInDim S50000x256 ![] bcast_S_S50000x256),
    nullary main_c_8 (constantI S_ 32 0#32),
    unary main_c_8 main_v33 (broadcastInDim S800000 ![] bcast_S_S800000),
    binary main_v1 main_v33 main_v34 (cmpi .slt),
    nullary main_c_9 (constantI S_ 32 50000#32),
    unary main_c_9 main_v35 (broadcastInDim S800000 ![] bcast_S_S800000),
    binary main_v1 main_v35 main_v36 addi,
    ternary main_v34 main_v36 main_v1 main_v37 select,
    unary main_v37 main_v38 (broadcastInDim S800000x1 ![0] bcast_S800000_S800000x1_0),
    binary main_v4 main_v38 main_v39 (fun x i => Host.gather gather_S50000x256_S800000x1_S800000x256_1_0_n_n_0_1_1256 x i),
    unary main_v31 main_v40 (broadcastInDim S800000x1 ![0] bcast_S800000_S800000x1_0),
    unary main_v40 main_v41 (broadcastInDim S800000x256 ![0, 1] bcast_S800000x1_S800000x256_0_1),
    binary main_v39 main_v41 main_v42 mulf,
    nullary main_c_10 (constantI S_ 32 0#32),
    unary main_c_10 main_v43 (broadcastInDim S800000 ![] bcast_S_S800000),
    binary main_v3 main_v43 main_v44 (cmpi .slt),
    nullary main_c_11 (constantI S_ 32 50000#32),
    unary main_c_11 main_v45 (broadcastInDim S800000 ![] bcast_S_S800000),
    binary main_v3 main_v45 main_v46 addi,
    ternary main_v44 main_v46 main_v3 main_v47 select,
    unary main_v47 main_v48 (broadcastInDim S800000x1 ![0] bcast_S800000_S800000x1_0),
    ternary main_v32 main_v48 main_v42 main_v49 (fun x i u => Host.scatterAdd scatter_S50000x256_S800000x1_S800000x256_1_0_0_1 x i u),
    nullary main_cst_12 (constant S_ .f32 0x3F800000#32),
    unary main_cst_12 main_v50 (broadcastInDim S50000 ![] bcast_S_S50000),
    binary main_v50 main_v15 main_v51 Host.divf,
    unary main_v51 main_v52 (broadcastInDim S50000x1 ![0] bcast_S50000_S50000x1_0),
    unary main_v52 main_v53 (broadcastInDim S50000x256 ![0, 1] bcast_S50000x1_S50000x256_0_1),
    binary main_v4 main_v53 main_v54 mulf,
    binary main_v49 main_v54 main_v55 addf,
    unary main_arg2 main_v56 (broadcastInDim S1x256 ![1] bcast_S256_S1x256_1),
    unary main_v56 main_v57 (broadcastInDim S50000x256 ![0, 1] bcast_S1x256_S50000x256_0_1),
    binary main_v55 main_v57 main_v58 addf,
    -- the exponential linear unit, its body at the call's buffers
    TRef.nullary main_call0.cst (constant S_ .f32 0x00000000#32),
    TRef.unary main_call0.cst main_call0.v0 (broadcastInDim S50000x256 ![] bcast_S_S50000x256),
    TRef.binary (.of main_v58) main_call0.v0 main_call0.v1 (cmpf .ogt),
    TRef.nullary main_call0.cst_0 (constant S_ .f32 0x00000000#32),
    TRef.unary main_call0.cst_0 main_call0.v2 (broadcastInDim S50000x256 ![] bcast_S_S50000x256),
    TRef.binary (.of main_v58) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x256 ![] bcast_S_S50000x256),
    TRef.ternary main_call0.v3 main_call0.call0.v1 (.of main_v58) main_call0.call0.v2 select,
    TRef.unary main_call0.call0.v2 main_call0.v5 Host.expm1,
    TRef.nullary main_call0.cst_2 (constant S_ .f32 0x3F800000#32),
    TRef.unary main_call0.cst_2 main_call0.v6 (broadcastInDim S50000x256 ![] bcast_S_S50000x256),
    TRef.binary main_call0.v6 main_call0.v5 main_call0.v7 mulf,
    TRef.ternary main_call0.v1 (.of main_v58) main_call0.v7 main_call0.call1.v0 select,
    -- the second dense product
    binary main_v59 main_arg3 main_v60 (fun l r => Host.dotGeneral dot_S50000x256_S256x128_S50000x128_1_0_0_1_n_n none l r),
    -- the degrees and the edge weights once more
    nullary main_cst_13 (constant S_ .f32 0x00000000#32),
    unary main_cst_13 main_v61 (broadcastInDim S50000 ![] bcast_S_S50000),
    nullary main_c_14 (constantI S_ 32 0#32),
    unary main_c_14 main_v62 (broadcastInDim S800000 ![] bcast_S_S800000),
    binary main_v3 main_v62 main_v63 (cmpi .slt),
    nullary main_c_15 (constantI S_ 32 50000#32),
    unary main_c_15 main_v64 (broadcastInDim S800000 ![] bcast_S_S800000),
    binary main_v3 main_v64 main_v65 addi,
    ternary main_v63 main_v65 main_v3 main_v66 select,
    unary main_v66 main_v67 (broadcastInDim S800000x1 ![0] bcast_S800000_S800000x1_0),
    nullary main_cst_16 (constant S_ .f32 0x3F800000#32),
    unary main_cst_16 main_v68 (broadcastInDim S800000 ![] bcast_S_S800000),
    ternary main_v61 main_v67 main_v68 main_v69 (fun x i u => Host.scatterAdd scatter_S50000_S800000x1_S800000_n_0_0_1 x i u),
    nullary main_cst_17 (constant S_ .f32 0x3F800000#32),
    unary main_cst_17 main_v70 (broadcastInDim S50000 ![] bcast_S_S50000),
    binary main_v69 main_v70 main_v71 addf,
    unary main_v71 main_v72 Host.rsqrt,
    nullary main_c_18 (constantI S_ 32 0#32),
    unary main_c_18 main_v73 (broadcastInDim S800000 ![] bcast_S_S800000),
    binary main_v1 main_v73 main_v74 (cmpi .slt),
    nullary main_c_19 (constantI S_ 32 50000#32),
    unary main_c_19 main_v75 (broadcastInDim S800000 ![] bcast_S_S800000),
    binary main_v1 main_v75 main_v76 addi,
    ternary main_v74 main_v76 main_v1 main_v77 select,
    unary main_v77 main_v78 (broadcastInDim S800000x1 ![0] bcast_S800000_S800000x1_0),
    binary main_v72 main_v78 main_v79 (fun x i => Host.gather gather_S50000_S800000x1_S800000_n_0_n_n_0_1_1 x i),
    nullary main_c_20 (constantI S_ 32 0#32),
    unary main_c_20 main_v80 (broadcastInDim S800000 ![] bcast_S_S800000),
    binary main_v3 main_v80 main_v81 (cmpi .slt),
    nullary main_c_21 (constantI S_ 32 50000#32),
    unary main_c_21 main_v82 (broadcastInDim S800000 ![] bcast_S_S800000),
    binary main_v3 main_v82 main_v83 addi,
    ternary main_v81 main_v83 main_v3 main_v84 select,
    unary main_v84 main_v85 (broadcastInDim S800000x1 ![0] bcast_S800000_S800000x1_0),
    binary main_v72 main_v85 main_v86 (fun x i => Host.gather gather_S50000_S800000x1_S800000_n_0_n_n_0_1_1 x i),
    binary main_v79 main_v86 main_v87 mulf,
    -- the second layer's neighbour sum, self term and bias
    nullary main_cst_22 (constant S_ .f32 0x00000000#32),
    unary main_cst_22 main_v88 (broadcastInDim S50000x128 ![] bcast_S_S50000x128),
    nullary main_c_23 (constantI S_ 32 0#32),
    unary main_c_23 main_v89 (broadcastInDim S800000 ![] bcast_S_S800000),
    binary main_v1 main_v89 main_v90 (cmpi .slt),
    nullary main_c_24 (constantI S_ 32 50000#32),
    unary main_c_24 main_v91 (broadcastInDim S800000 ![] bcast_S_S800000),
    binary main_v1 main_v91 main_v92 addi,
    ternary main_v90 main_v92 main_v1 main_v93 select,
    unary main_v93 main_v94 (broadcastInDim S800000x1 ![0] bcast_S800000_S800000x1_0),
    binary main_v60 main_v94 main_v95 (fun x i => Host.gather gather_S50000x128_S800000x1_S800000x128_1_0_n_n_0_1_1128 x i),
    unary main_v87 main_v96 (broadcastInDim S800000x1 ![0] bcast_S800000_S800000x1_0),
    unary main_v96 main_v97 (broadcastInDim S800000x128 ![0, 1] bcast_S800000x1_S800000x128_0_1),
    binary main_v95 main_v97 main_v98 mulf,
    nullary main_c_25 (constantI S_ 32 0#32),
    unary main_c_25 main_v99 (broadcastInDim S800000 ![] bcast_S_S800000),
    binary main_v3 main_v99 main_v100 (cmpi .slt),
    nullary main_c_26 (constantI S_ 32 50000#32),
    unary main_c_26 main_v101 (broadcastInDim S800000 ![] bcast_S_S800000),
    binary main_v3 main_v101 main_v102 addi,
    ternary main_v100 main_v102 main_v3 main_v103 select,
    unary main_v103 main_v104 (broadcastInDim S800000x1 ![0] bcast_S800000_S800000x1_0),
    ternary main_v88 main_v104 main_v98 main_v105 (fun x i u => Host.scatterAdd scatter_S50000x128_S800000x1_S800000x128_1_0_0_1 x i u),
    nullary main_cst_27 (constant S_ .f32 0x3F800000#32),
    unary main_cst_27 main_v106 (broadcastInDim S50000 ![] bcast_S_S50000),
    binary main_v106 main_v71 main_v107 Host.divf,
    unary main_v107 main_v108 (broadcastInDim S50000x1 ![0] bcast_S50000_S50000x1_0),
    unary main_v108 main_v109 (broadcastInDim S50000x128 ![0, 1] bcast_S50000x1_S50000x128_0_1),
    binary main_v60 main_v109 main_v110 mulf,
    binary main_v105 main_v110 main_v111 addf,
    unary main_arg4 main_v112 (broadcastInDim S1x128 ![1] bcast_S128_S1x128_1),
    unary main_v112 main_v113 (broadcastInDim S50000x128 ![0, 1] bcast_S1x128_S50000x128_0_1),
    binary main_v111 main_v113 main_v114 addf,
    -- the mean over each graph: node counts, feature sums, the quotient by the count (at least one)
    nullary main_cst_28 (constant S_ .f32 0x3F800000#32),
    unary main_cst_28 main_v115 (broadcastInDim S50000 ![] bcast_S_S50000),
    nullary main_cst_29 (constant S_ .f32 0x00000000#32),
    unary main_cst_29 main_v116 (broadcastInDim S64 ![] bcast_S_S64),
    unary main_arg6 main_v117 (broadcastInDim S50000x1 ![0] bcast_S50000_S50000x1_0),
    ternary main_v116 main_v117 main_v115 main_v118 (fun x i u => Host.scatterAdd scatter_S64_S50000x1_S50000_n_0_0_1 x i u),
    nullary main_cst_30 (constant S_ .f32 0x00000000#32),
    unary main_cst_30 main_v119 (broadcastInDim S64x128 ![] bcast_S_S64x128),
    unary main_arg6 main_v120 (broadcastInDim S50000x1 ![0] bcast_S50000_S50000x1_0),
    ternary main_v119 main_v120 main_v114 main_v121 (fun x i u => Host.scatterAdd scatter_S64x128_S50000x1_S50000x128_1_0_0_1 x i u),
    nullary main_cst_31 (constant S_ .f32 0x3F800000#32),
    unary main_cst_31 main_v122 (broadcastInDim S64 ![] bcast_S_S64),
    binary main_v118 main_v122 main_v123 maximumf,
    unary main_v123 main_v124 (broadcastInDim S64x1 ![0] bcast_S64_S64x1_0),
    unary main_v124 main_v125 (broadcastInDim S64x128 ![0, 1] bcast_S64x1_S64x128_0_1),
    binary main_v121 main_v125 main_v126 Host.divf ]

/-- The entry point runs exactly these operations, one after the other. -/
theorem main_eq (c : Dev nD) : main (F := F) c = seq rops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem rops_sub : (rops : List (HloOp τ sig (Elt F))).Forall fun op => op.bufs ⊆ tcRefs τ sig := by
  simp only [List.Forall, nullary_bufs_sub, unary_bufs_sub, binary_bufs_sub, ternary_bufs_sub, reshape_bufs_sub, and_self]

/-- From any memory: every weakly fair execution of the reference ends, without a fault, with every buffer at the fold of
    its operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after rops (launchContents m c) (Proc.devRef .tc b) :=
  run_seq scopedRefs_eq scopedSems_eq defs main (fun _ => rops) main_eq (fun _ => rops_sub) m ρ

end Cert.ReferenceIdeal.Line

end
-- ==== Proof.RefKept.lean ====
/-
  The reference's line writes none of the seven argument buffers: read after the line, each holds what it held before.
-/
import proofs.«126160_j3848290697594_1_alg».proof.Proof.RefLine

set_option maxRecDepth 65536

noncomputable section

namespace Cert.ReferenceIdeal.Line

open Cert.ReferenceIdeal Idealize.ShloMosaic Idealize.ShloMosaic.TcCoe Idealize.ShloMosaic.StableHlo

set_option maxHeartbeats 4000000

variable {F : FTy → Type} [FloatOps F]

theorem kept0 (V : Valuation τ sig (Elt F)) : after rops V (Proc.devRef .tc main_arg0) = V (Proc.devRef .tc main_arg0) := by
  after_results_simp
theorem kept1 (V : Valuation τ sig (Elt F)) : after rops V (Proc.devRef .tc main_arg1) = V (Proc.devRef .tc main_arg1) := by
  after_results_simp
theorem kept2 (V : Valuation τ sig (Elt F)) : after rops V (Proc.devRef .tc main_arg2) = V (Proc.devRef .tc main_arg2) := by
  after_results_simp
theorem kept3 (V : Valuation τ sig (Elt F)) : after rops V (Proc.devRef .tc main_arg3) = V (Proc.devRef .tc main_arg3) := by
  after_results_simp
theorem kept4 (V : Valuation τ sig (Elt F)) : after rops V (Proc.devRef .tc main_arg4) = V (Proc.devRef .tc main_arg4) := by
  after_results_simp
theorem kept5 (V : Valuation τ sig (Elt F)) : after rops V (Proc.devRef .tc main_arg5) = V (Proc.devRef .tc main_arg5) := by
  after_results_simp
theorem kept6 (V : Valuation τ sig (Elt F)) : after rops V (Proc.devRef .tc main_arg6) = V (Proc.devRef .tc main_arg6) := by
  after_results_simp

end Cert.ReferenceIdeal.Line

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.Block0.lean ====
/-
  The first row-tiled product, as one function of whole arrays.

  The first tiled region walks the 50000 rows of its left operand in 25 blocks of 2000 rows; at block t it multiplies the
  block (rows 2000·t … 2000·t+1999, all 256 columns) by the whole 256×256 right operand into a zero accumulator and
  writes the product back as block t of the result. At the exact instance the change of number format on the way in is
  the identity and the product into a zero accumulator is the plain contraction, so entry (p, q) of block t is
  Σₖ x(2000·t + p, k) · w(k, q): entry (2000·t + p, q) of the contraction of the WHOLE arrays, which reads row 2000·t + p
  of the left operand only. The 25 blocks tile the result, so the result array ends as that contraction.
-/
import proofs.«126160_j3848290697594_1_alg».proof.Proof.Gen.KernelIdeal.Frame
import proofs.«126160_j3848290697594_1_alg».proof.Proof.LibMatmul
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The plain contraction of an M×K by a K×N array of extended reals: entry (p, q) is Σₖ x(p, k) · w(k, q). -/
def contract (M K N : ℕ) (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

theorem contract_apply (M K N : ℕ) (x : FVec Ideal ⟨2, ![M, K]⟩ .f32) (w : FVec Ideal ⟨2, ![K, N]⟩ .f32) (p : Fin M) (q : Fin N) :
    contract M K N x w (ix2 p q) = ∑ k : Fin K, x (ix2 p k) * w (ix2 k q) := rfl

theorem zero_offsets : (![0, 0] : Fin 2 → Nat) = fun _ => 0 := funext fun a => by fin_cases a <;> rfl

/-- The body's product at an entry: the format changes are the identity, the product into zero is the contraction. -/
theorem pay0_apply (x0 : Vec Ideal S2000x256 .f32) (x1 : Vec Ideal S256x256 .f32) (p : Fin 2000) (q : Fin 256) :
    k0_pay1 (F := Ideal) x0 x1 (ix2 p q) = ∑ k : Fin 256, x0 (ix2 p k) * x1 (ix2 k q) := by
  unfold k0_pay1
  exact Cert.MatmulAt.matmul_zero_plain_apply Facts₀.dot_S2000x256_S256x256_S2000x256_1_0_0_1_n_n_wf none _ _ p q

section
variable (V : (c : Dev nD) → (b : Ref sig .tc) → Buf (Elt Ideal) ((c : Thread nD τ).loc b))

/-- Where each window's block sits at grid point t: the row blocks at block row t, the right operand whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left operand's block t is entry (2000·t + p, k) of the array. -/
theorem emb0_0 (t : Fin cfg0.N) (p : Fin 2000) (k : Fin 256) (r : Fin 50000) (hr : r.val = t.val * 2000 + p.val) :
    ((cfg0.win 0).blk t).view.emb (ix2 p k) = ix2 r k := by
  obtain ⟨e0, e1, -⟩ := idx_facts0 t
  funext a; apply Fin.ext
  match a with
  | ⟨0, _⟩ => show win0_0.index t (0 : Fin 2) * 2000 + 1 * p.val = r.val; omega
  | ⟨1, _⟩ => show win0_0.index t (1 : Fin 2) * 256 + 1 * k.val = k.val; omega

/-- The right operand's block is the whole array at every point. -/
theorem emb0_1 (t : Fin cfg0.N) (k : Fin 256) (q : Fin 256) :
    ((cfg0.win 1).blk t).view.emb (ix2 k q) = ix2 k q := by
  obtain ⟨-, -, e2, e3, -⟩ := idx_facts0 t
  funext a; apply Fin.ext
  match a with
  | ⟨0, _⟩ => show win0_1.index t (0 : Fin 2) * 256 + 1 * k.val = k.val; omega
  | ⟨1, _⟩ => show win0_1.index t (1 : Fin 2) * 256 + 1 * q.val = q.val; omega

/-- Entry (p, q) of the result's block t is entry (2000·t + p, q) of the array. -/
theorem emb0_2 (t : Fin cfg0.N) (p : Fin 2000) (q : Fin 256) (r : Fin 50000) (hr : r.val = t.val * 2000 + p.val) :
    ((cfg0.win 2).blk t).view.emb (ix2 p q) = ix2 r q := by
  obtain ⟨-, -, -, -, e4, e5⟩ := idx_facts0 t
  funext a; apply Fin.ext
  match a with
  | ⟨0, _⟩ => show win0_2.index t (0 : Fin 2) * 2000 + 1 * p.val = r.val; omega
  | ⟨1, _⟩ => show win0_2.index t (1 : Fin 2) * 256 + 1 * q.val = q.val; omega

/-- What point t writes back is block t of the contraction of the arrays as the region finds them. -/
theorem flushed0_eq (c : Dev nD) (t : Fin cfg0.N) :
    (dat0 V c).flushed 2 t
      = ((cfg0.win 2).blk t).view.read (Elt Ideal) (contract 50000 256 256 (V c main_arg0) (V c main_arg1)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x256) zero_offsets]
  funext j
  obtain ⟨p, q, rfl⟩ : ∃ (p : Fin 2000) (q : Fin 256), j = ix2 p q := ⟨j 0, j 1, eq_ix2 j⟩
  have hN : cfg0.N = 25 := N_0
  have ht : t.val < cfg0.N := t.isLt
  have hr : t.val * 2000 + p.val < 50000 := by have := p.isLt; omega
  refine (pay0_apply _ _ p q).trans ?_
  rw [View.read_apply, emb0_2 t p q ⟨_, hr⟩ rfl, contract_apply]
  refine Finset.sum_congr rfl fun k _ => ?_
  unfold iblk0
  rw [View.read_apply, View.read_apply, emb0_0 t p k ⟨_, hr⟩ rfl, emb0_1 t k q]
  rfl

/-- An index of the result is in point t's block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v31).slice (win0_2.rect t)).set ↔ _
  rw [View.set_slice_whole, Rect.mem_set_unit]
  exact Iff.rfl

/-- Row r of the result lies in block r / 2000: the 25 blocks tile the array. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  have hlt : (i 0).val / 2000 < cfg0.N := by omega
  obtain ⟨-, -, -, -, e4, e5⟩ := idx_facts0 ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_blk0]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    omega
  | ⟨1, _⟩ =>
    show win0_2.index ⟨(i 0).val / 2000, hlt⟩ (1 : Fin 2) * 256 ≤ (i 1).val ∧ (i 1).val < win0_2.index ⟨(i 0).val / 2000, hlt⟩ (1 : Fin 2) * 256 + 256
    omega

/-- The result array after the region: the contraction of the two operand arrays as the region finds them. -/
theorem arr0_out (c : Dev nD) :
    (dat0 V c).arrAt 2 cfg0.N = contract 50000 256 256 (V c main_arg0) (V c main_arg1) :=
  (dat0 V c).arrAt_eq_of_cover 2 _ (fun t _ => flushed0_eq V c t) cover0

/-- The operand arrays are not written back: they end as the region found them. -/
theorem arr0_in0 (c : Dev nD) : (dat0 V c).arrAt 0 cfg0.N = V c main_arg0 :=
  ((dat0 V c).arrAt_in 0 rfl cfg0.N).trans (A_eq0 V c 0)
theorem arr0_in1 (c : Dev nD) : (dat0 V c).arrAt 1 cfg0.N = V c main_arg1 :=
  ((dat0 V c).arrAt_in 1 rfl cfg0.N).trans (A_eq0 V c 1)

end

end Cert.KernelIdeal.Hand

end
-- ==== Proof.Block1.lean ====
/-
  The second row-tiled product, with the exponential linear unit in front, as one function of whole arrays.

  The second tiled region walks the 50000 rows of its left operand in 25 blocks of 2000 rows. At block t it first applies the
  exponential linear unit to every entry of the block (x where x > 0, exp x − 1 elsewhere: an entry-by-entry function),
  then multiplies the 2000×256 result by the whole 256×128 right operand into a zero accumulator, and writes the
  product back as block t of the 50000×128 result. At the exact instance entry (p, q) of block t is
  Σₖ elu(y(2000·t + p, k)) · w(k, q): entry (2000·t + p, q) of the contraction of the unit applied to the WHOLE left array
  with the right array. The 25 blocks tile the result, so the result array ends as that contraction.
-/
import proofs.«126160_j3848290697594_1_alg».proof.Proof.Block0

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The exponential linear unit at one extended real, as the tile body computes it: x where x > 0, exp x − 1 elsewhere. -/
def elu1 (x : Ideal .f32) : Ideal .f32 :=
  Scalar.select (FloatOps.cmpf .ogt x (Scalar.ofBits (F := Ideal) .f32 0x00000000#32)) x
    (FloatOps.subf (FloatOps.exp x) (Scalar.ofBits (F := Ideal) .f32 0x3F800000#32))

/-- The unit applied to every entry of an array of any shape. -/
def eluV (S : Shape) (y : FVec Ideal S .f32) : FVec Ideal S .f32 := fun i => elu1 (y i)

/-- The body's product at an entry: the same-shape cast and the format changes are the identity, the unit acts entry by
    entry, the product into zero is the contraction. -/
theorem pay1_apply (x0 : Vec Ideal S2000x256 .f32) (x1 : Vec Ideal S256x128 .f32) (p : Fin 2000) (q : Fin 128) :
    k1_pay1 (F := Ideal) x0 x1 (ix2 p q) = ∑ k : Fin 256, elu1 (x0 (ix2 p k)) * x1 (ix2 k q) := by
  unfold k1_pay1
  simp only [shapeCast_self]
  exact Cert.MatmulAt.matmul_zero_plain_apply Facts₀.dot_S2000x256_S256x128_S2000x128_1_0_0_1_n_n_wf none _ _ p q

section
variable (V : (c : Dev nD) → (b : Ref sig .tc) → Buf (Elt Ideal) ((c : Thread nD τ).loc b))

/-- Where each window's block sits at grid point t: the row blocks at block row t, the right operand whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of the left operand's block t is entry (2000·t + p, k) of the array. -/
theorem emb1_0 (t : Fin cfg1.N) (p : Fin 2000) (k : Fin 256) (r : Fin 50000) (hr : r.val = t.val * 2000 + p.val) :
    ((cfg1.win 0).blk t).view.emb (ix2 p k) = ix2 r k := by
  obtain ⟨e0, e1, -⟩ := idx_facts1 t
  funext a; apply Fin.ext
  match a with
  | ⟨0, _⟩ => show win1_0.index t (0 : Fin 2) * 2000 + 1 * p.val = r.val; omega
  | ⟨1, _⟩ => show win1_0.index t (1 : Fin 2) * 256 + 1 * k.val = k.val; omega

/-- The right operand's block is the whole array at every point. -/
theorem emb1_1 (t : Fin cfg1.N) (k : Fin 256) (q : Fin 128) :
    ((cfg1.win 1).blk t).view.emb (ix2 k q) = ix2 k q := by
  obtain ⟨-, -, e2, e3, -⟩ := idx_facts1 t
  funext a; apply Fin.ext
  match a with
  | ⟨0, _⟩ => show win1_1.index t (0 : Fin 2) * 256 + 1 * k.val = k.val; omega
  | ⟨1, _⟩ => show win1_1.index t (1 : Fin 2) * 128 + 1 * q.val = q.val; omega

/-- Entry (p, q) of the result's block t is entry (2000·t + p, q) of the array. -/
theorem emb1_2 (t : Fin cfg1.N) (p : Fin 2000) (q : Fin 128) (r : Fin 50000) (hr : r.val = t.val * 2000 + p.val) :
    ((cfg1.win 2).blk t).view.emb (ix2 p q) = ix2 r q := by
  obtain ⟨-, -, -, -, e4, e5⟩ := idx_facts1 t
  funext a; apply Fin.ext
  match a with
  | ⟨0, _⟩ => show win1_2.index t (0 : Fin 2) * 2000 + 1 * p.val = r.val; omega
  | ⟨1, _⟩ => show win1_2.index t (1 : Fin 2) * 128 + 1 * q.val = q.val; omega

/-- What point t writes back is block t of the contraction of the unit of the left array with the right array, as the region
    finds them. -/
theorem flushed1_eq (c : Dev nD) (t : Fin cfg1.N) :
    (dat1 V c).flushed 2 t
      = ((cfg1.win 2).blk t).view.read (Elt Ideal)
          (contract 50000 256 128 (eluV S50000x256 (V c main_v58)) (V c main_arg3)) := by
  show (cfg1.win 2).cut (grid1.coords t) ((dat1 V c).after 2 t) = _
  rw [after1_2]
  unfold out1_2
  rw [View.canon_unit_zero zero_offsets]
  simp only [View.ld_unit_zero (S := S2000x256) zero_offsets, View.ld_unit_zero (S := S256x128) zero_offsets]
  funext j
  obtain ⟨p, q, rfl⟩ : ∃ (p : Fin 2000) (q : Fin 128), j = ix2 p q := ⟨j 0, j 1, eq_ix2 j⟩
  have hN : cfg1.N = 25 := N_1
  have ht : t.val < cfg1.N := t.isLt
  have hr : t.val * 2000 + p.val < 50000 := by have := p.isLt; omega
  refine (pay1_apply _ _ p q).trans ?_
  rw [View.read_apply, emb1_2 t p q ⟨_, hr⟩ rfl, contract_apply]
  refine Finset.sum_congr rfl fun k _ => ?_
  unfold iblk1
  rw [View.read_apply, View.read_apply, emb1_0 t p k ⟨_, hr⟩ rfl, emb1_1 t k q]
  rfl

/-- An index of the result is in point t's block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v59).slice (win1_2.rect t)).set ↔ _
  rw [View.set_slice_whole, Rect.mem_set_unit]
  exact Iff.rfl

/-- Row r of the result lies in block r / 2000: the 25 blocks tile the array. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  have hlt : (i 0).val / 2000 < cfg1.N := by omega
  obtain ⟨-, -, -, -, e4, e5⟩ := idx_facts1 ⟨(i 0).val / 2000, hlt⟩
  have e4' : win1_2.index ⟨(i 0).val / 2000, hlt⟩ (0 : Fin 2) = (i 0).val / 2000 := e4
  refine ⟨⟨(i 0).val / 2000, hlt⟩, flush1_2 _, ?_⟩
  rw [mem_blk1]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    omega
  | ⟨1, _⟩ =>
    show win1_2.index ⟨(i 0).val / 2000, hlt⟩ (1 : Fin 2) * 128 ≤ (i 1).val ∧ (i 1).val < win1_2.index ⟨(i 0).val / 2000, hlt⟩ (1 : Fin 2) * 128 + 128
    omega

/-- The result array after the region: the contraction of the unit of the left array with the right array. -/
theorem arr1_out (c : Dev nD) :
    (dat1 V c).arrAt 2 cfg1.N = contract 50000 256 128 (eluV S50000x256 (V c main_v58)) (V c main_arg3) :=
  (dat1 V c).arrAt_eq_of_cover 2 _ (fun t _ => flushed1_eq V c t) cover1

/-- The operand arrays are not written back: they end as the region found them. -/
theorem arr1_in0 (c : Dev nD) : (dat1 V c).arrAt 0 cfg1.N = V c main_v58 :=
  ((dat1 V c).arrAt_in 0 rfl cfg1.N).trans (A_eq1 V c 0)
theorem arr1_in1 (c : Dev nD) : (dat1 V c).arrAt 1 cfg1.N = V c main_arg3 :=
  ((dat1 V c).arrAt_in 1 rfl cfg1.N).trans (A_eq1 V c 1)

end

end Cert.KernelIdeal.Hand

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«126160_j3848290697594_1_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.HostForms.lean ====
/-
  Two spellings of the same array functions.

  * The host's rows-times-columns product of whole arrays is, at the exact instance, the plain contraction
    Σₖ x(p, k) · w(k, q) entry by entry: for the 50000×256 by 256×256 and the 50000×256 by 256×128 products of the reference.
  * The array library writes the exponential linear unit as
    select(x > 0, x, 1 · expm1(select(x > 0, 0, x))); the tile body writes select(x > 0, x, exp x − 1). On the extended
    reals expm1 x IS exp x − 1, where x > 0 both are x, and elsewhere the inner selection returns x and 1 · (exp x − 1)
    is exp x − 1: the two agree at every extended real, the infinities included, so no finiteness is needed.
-/
import proofs.«126160_j3848290697594_1_alg».proof.ReferenceIdeal
import proofs.«126160_j3848290697594_1_alg».proof.Proof.Gen.ReferenceIdeal
import proofs.«126160_j3848290697594_1_alg».proof.Proof.Block1
import proofs.«126160_j3848290697594_1_alg».proof.Proof.LibRank2
import Idealize.ShloMosaic.Lib.IdealHost

noncomputable section

namespace Cert.Forms

open Idealize.ShloMosaic Idealize.ShloMosaic.ValueIdx
open Cert.KernelIdeal.Hand (contract elu1 eluV)

/-- The reference's first dense product is the plain contraction. -/
theorem dot1_eq (x : FVec Ideal ⟨2, ![50000, 256]⟩ .f32) (w : FVec Ideal ⟨2, ![256, 256]⟩ .f32) :
    Host.dotGeneral Cert.ReferenceIdeal.dot_S50000x256_S256x256_S50000x256_1_0_0_1_n_n none x w
      = contract 50000 256 256 x w := by
  funext i
  obtain ⟨p, q, rfl⟩ : ∃ (p : Fin 50000) (q : Fin 256), i = ix2 p q := ⟨i 0, i 1, eq_ix2 i⟩
  exact Cert.Rank2.dotGeneral_plain_apply
    Cert.ReferenceIdeal.Facts₀.dot_S50000x256_S256x256_S50000x256_1_0_0_1_n_n_wf none x w p q

/-- The reference's second dense product is the plain contraction. -/
theorem dot2_eq (y : FVec Ideal ⟨2, ![50000, 256]⟩ .f32) (w : FVec Ideal ⟨2, ![256, 128]⟩ .f32) :
    Host.dotGeneral Cert.ReferenceIdeal.dot_S50000x256_S256x128_S50000x128_1_0_0_1_n_n none y w
      = contract 50000 256 128 y w := by
  funext i
  obtain ⟨p, q, rfl⟩ : ∃ (p : Fin 50000) (q : Fin 128), i = ix2 p q := ⟨i 0, i 1, eq_ix2 i⟩
  exact Cert.Rank2.dotGeneral_plain_apply
    Cert.ReferenceIdeal.Facts₀.dot_S50000x256_S256x128_S50000x128_1_0_0_1_n_n_wf none y w p q

/-- The exponential linear unit of a 50000×256 array in the array library's spelling: the outer selection on x > 0 between
    x and one times the exponential-minus-one of the inner selection (0 where x > 0, x elsewhere). -/
def refElu (y : FVec Ideal Cert.ReferenceIdeal.S50000x256 .f32) : FVec Ideal Cert.ReferenceIdeal.S50000x256 .f32 :=
  select
    (cmpf .ogt y (broadcastInDim Cert.ReferenceIdeal.S50000x256 ![] Cert.ReferenceIdeal.Facts₀.bcast_S_S50000x256
      (constant (F := Ideal) Cert.ReferenceIdeal.S_ .f32 0x00000000#32)))
    y
    (mulf
      (broadcastInDim Cert.ReferenceIdeal.S50000x256 ![] Cert.ReferenceIdeal.Facts₀.bcast_S_S50000x256
        (constant (F := Ideal) Cert.ReferenceIdeal.S_ .f32 0x3F800000#32))
      (Host.expm1
        (select
          (cmpf .ogt y (broadcastInDim Cert.ReferenceIdeal.S50000x256 ![] Cert.ReferenceIdeal.Facts₀.bcast_S_S50000x256
            (constant (F := Ideal) Cert.ReferenceIdeal.S_ .f32 0x00000000#32)))
          (broadcastInDim Cert.ReferenceIdeal.S50000x256 ![] Cert.ReferenceIdeal.Facts₀.bcast_S_S50000x256
            (id (constant (F := Ideal) Cert.ReferenceIdeal.S_ .f32 0x00000000#32)))
          y)))

/-- A selection on the bit zero takes its second branch. -/
theorem select_zero {α : Type} (a b : α) : Scalar.select (0#1 : BitVec 1) a b = b := rfl
/-- A selection on the bit one takes its first branch. -/
theorem select_one {α : Type} (a b : α) : Scalar.select (1#1 : BitVec 1) a b = a := rfl

/-- The two spellings of the unit are one function on every extended real. -/
theorem refElu_eq (y : FVec Ideal Cert.ReferenceIdeal.S50000x256 .f32) :
    refElu y = eluV Cert.ReferenceIdeal.S50000x256 y := by
  funext i
  show Scalar.select (FloatOps.cmpf .ogt (y i) (FloatOps.ofBits (F := Ideal) .f32 0x00000000#32)) (y i)
      (FloatOps.mulf (FloatOps.ofBits (F := Ideal) .f32 0x3F800000#32)
        (FloatOps.hostUnary .expm1
          (Scalar.select (FloatOps.cmpf .ogt (y i) (FloatOps.ofBits (F := Ideal) .f32 0x00000000#32))
            (FloatOps.ofBits (F := Ideal) .f32 0x00000000#32) (y i))))
    = Scalar.select (FloatOps.cmpf .ogt (y i) (FloatOps.ofBits (F := Ideal) .f32 0x00000000#32)) (y i)
        (FloatOps.subf (FloatOps.exp (y i)) (FloatOps.ofBits (F := Ideal) .f32 0x3F800000#32))
  generalize FloatOps.cmpf (F := Ideal) .ogt (y i) (FloatOps.ofBits (F := Ideal) .f32 0x00000000#32) = b
  rcases BitVec.eq_zero_or_eq_one b with h | h <;> subst h
  · rw [select_zero, select_zero, select_zero, Ideal.mulf_def, Ideal.hostUnary_expm1_def, Ideal.subf_def, Ideal.exp_def,
      Ideal.ofBits_def, Ideal.ofBits_one_f32, one_mul]
  · rw [select_one, select_one]

end Cert.Forms

end
-- ==== Proof.KerLine.lean ====
/-
  The idealized kernel program as ONE straight line of host operations.

  A tiled region leaves the core's buffers as it found them, except that its result array holds one whole-array function of
  its two operand arrays (the contraction for the first region; the contraction of the exponential linear unit of the left
  operand for the second). That is exactly what ONE two-operand host operation writing the result buffer does. Written
  with the reference's spelling of those functions (its dense product, its spelling of the unit), each region's exit
  contents are such an operation's result over its entry contents, and so the contents at the last segment boundary are
  the fold of one line — first stretch, product, second stretch, unit-then-product, last stretch — over the launch memory.
-/
import proofs.«126160_j3848290697594_1_alg».proof.Proof.HostForms
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Cert.Forms (refElu)

/-- The reference's first dense product, as a function of two arrays. -/
abbrev prod31 (l : FVec Ideal Cert.ReferenceIdeal.S50000x256 .f32) (r : FVec Ideal Cert.ReferenceIdeal.S256x256 .f32) :
    FVec Ideal Cert.ReferenceIdeal.S50000x256 .f32 :=
  Host.dotGeneral (F := Ideal) Cert.ReferenceIdeal.dot_S50000x256_S256x256_S50000x256_1_0_0_1_n_n none l r

/-- The reference's unit followed by its second dense product, as a function of two arrays. -/
abbrev prod59 (l : FVec Ideal Cert.ReferenceIdeal.S50000x256 .f32) (r : FVec Ideal Cert.ReferenceIdeal.S256x128 .f32) :
    FVec Ideal Cert.ReferenceIdeal.S50000x128 .f32 :=
  Host.dotGeneral (F := Ideal) Cert.ReferenceIdeal.dot_S50000x256_S256x128_S50000x128_1_0_0_1_n_n none (refElu l) r

/-- The first tiled region as one host operation: the dense product of its two operand arrays into its result buffer. -/
abbrev op31 : HloOp τ sig (Elt Ideal) :=
  StableHlo.binary main_arg0 main_arg1 main_v31 prod31

/-- The second tiled region as one host operation: the dense product of the unit of its left operand with its right
    operand into its result buffer. -/
abbrev op59 : HloOp τ sig (Elt Ideal) :=
  StableHlo.binary main_v58 main_arg3 main_v59 prod59

/-- The whole program as one line of host operations. -/
abbrev kops : List (HloOp τ sig (Elt Ideal)) := (hostOps0 ++ op31 :: hostOps1) ++ op59 :: hostOps2

/-- The first region's result array, in the reference's spelling: the dense product of its operand arrays as found. -/
theorem arr0_out_dot (V : (c : Dev nD) → (b : Ref sig .tc) → Buf (Elt Ideal) ((c : Thread nD τ).loc b)) (c : Dev nD) :
    (dat0 V c).arrAt 2 cfg0.N
      = Host.dotGeneral (F := Ideal) (φ₁ := .f32) (φ₂ := .f32)
          Cert.ReferenceIdeal.dot_S50000x256_S256x256_S50000x256_1_0_0_1_n_n none (V c main_arg0) (V c main_arg1) := by
  rw [arr0_out, ← Cert.Forms.dot1_eq]

/-- The second region's result array, in the reference's spelling: the dense product of the unit of its left operand array
    with its right operand array, as found. -/
theorem arr1_out_dot (V : (c : Dev nD) → (b : Ref sig .tc) → Buf (Elt Ideal) ((c : Thread nD τ).loc b)) (c : Dev nD) :
    (dat1 V c).arrAt 2 cfg1.N
      = Host.dotGeneral (F := Ideal) (φ₁ := .f32) (φ₂ := .f32)
          Cert.ReferenceIdeal.dot_S50000x256_S256x128_S50000x128_1_0_0_1_n_n none (refElu (V c main_v58)) (V c main_arg3) := by
  rw [arr1_out, Cert.Forms.dot2_eq, Cert.Forms.refElu_eq]

/-- From ANY entry contents X, the first region's exit contents — its three arrays at what the pipeline leaves, every other
    buffer as entered — are the product operation's result over X. -/
theorem region0_exit (X : Dev nD → Valuation τ sig (Elt Ideal)) (c : Dev nD) :
    Pipeline.withArrays spec0 c (X c) (fun w => (dat0 (fun c b => X c b) c).arrAt w cfg0.N) = op31.result (X c) := by
  funext b
  by_cases h : ∃ w, Proc.devRef .tc (Pipeline.arrRef spec0 w) = b
  · obtain ⟨w, rfl⟩ := h
    rw [Pipeline.withArrays_arr spec0 launch0.win.arr_inj c _ _ w]
    fin_cases w
    · exact (arr0_in0 (fun c b => X c b) c).trans
        (StableHlo.binary_result_ne main_arg0 main_arg1 main_v31 _ _ _ _ (X c) (r := main_arg0) (by decide)).symm
    · exact (arr0_in1 (fun c b => X c b) c).trans
        (StableHlo.binary_result_ne main_arg0 main_arg1 main_v31 _ _ _ _ (X c) (r := main_arg1) (by decide)).symm
    · exact (arr0_out_dot (fun c b => X c b) c).trans
        (StableHlo.binary_result main_arg0 main_arg1 main_v31 prod31 _ _ _ (X c)).symm
  · have e : Pipeline.withArrays spec0 c (X c) (fun w => (dat0 (fun c b => X c b) c).arrAt w cfg0.N) b = X c b := by
      unfold Pipeline.withArrays
      exact dif_neg h
    rw [e]
    exact (op31.result_of_not_mem (X c) fun hb => h ⟨2, (Finset.mem_singleton.mp hb).symm⟩).symm

/-- From ANY entry contents X, the second region's exit contents are the unit-then-product operation's result over X. -/
theorem region1_exit (X : Dev nD → Valuation τ sig (Elt Ideal)) (c : Dev nD) :
    Pipeline.withArrays spec1 c (X c) (fun w => (dat1 (fun c b => X c b) c).arrAt w cfg1.N) = op59.result (X c) := by
  funext b
  by_cases h : ∃ w, Proc.devRef .tc (Pipeline.arrRef spec1 w) = b
  · obtain ⟨w, rfl⟩ := h
    rw [Pipeline.withArrays_arr spec1 launch1.win.arr_inj c _ _ w]
    fin_cases w
    · exact (arr1_in0 (fun c b => X c b) c).trans
        (StableHlo.binary_result_ne main_v58 main_arg3 main_v59 _ _ _ _ (X c) (r := main_v58) (by decide)).symm
    · exact (arr1_in1 (fun c b => X c b) c).trans
        (StableHlo.binary_result_ne main_v58 main_arg3 main_v59 _ _ _ _ (X c) (r := main_arg3) (by decide)).symm
    · exact (arr1_out_dot (fun c b => X c b) c).trans
        (StableHlo.binary_result main_v58 main_arg3 main_v59 prod59 _ _ _ (X c)).symm
  · have e : Pipeline.withArrays spec1 c (X c) (fun w => (dat1 (fun c b => X c b) c).arrAt w cfg1.N) b = X c b := by
      unfold Pipeline.withArrays
      exact dif_neg h
    rw [e]
    exact (op59.result_of_not_mem (X c) fun hb => h ⟨2, (Finset.mem_singleton.mp hb).symm⟩).symm

variable (m : (ℓ : Loc nD τ sig) → Buf (Elt Ideal) ℓ) (ρ : Dev nD → PrngReg)

/-- The first region's exit contents are the product operation's result over its entry contents. -/
theorem W2_eq (c : Dev nD) : W2 (F := Ideal) m ρ c = op31.result (W1 m ρ c) := by
  unfold W2
  exact region0_exit (W1 m ρ) c

/-- The second region's exit contents are the unit-then-product operation's result over its entry contents. -/
theorem W4_eq (c : Dev nD) : W4 (F := Ideal) m ρ c = op59.result (W3 m ρ c) := by
  unfold W4
  exact region1_exit (W3 m ρ) c

/-- The contents at the last segment boundary are the fold of the one line over the launch memory. -/
theorem W5_eq (c : Dev nD) : W5 (F := Ideal) m ρ c = StableHlo.after kops (W0 m ρ c) := by
  show StableHlo.after hostOps2 (W4 (F := Ideal) m ρ c) = _
  rw [W4_eq m ρ c]
  show StableHlo.after hostOps2 (op59.result (StableHlo.after hostOps1 (W2 (F := Ideal) m ρ c))) = _
  rw [W2_eq m ρ c, StableHlo.after_append, StableHlo.after_append]
  rfl

end Cert.KernelIdeal.Hand

end
-- ==== Proof.Bridge1.lean ====
/-
  The two lines, first half: up to the second dense product.

  The reference's line is cut after its 74th operation (the first layer's output) and after its 126th (the second dense
  product, and after it the degrees and edge weights computed a second time); the kernel program's line after its second
  stretch and after the operation its second region amounts to. Named here: the contents at the second cut of each line.
  First the first layer's output is the same array in both lines (every value it is made of — product, degrees, edge
  weights — is a small function of the arguments). Then, from ANY contents that agree on that array and on the second
  weight array, the unit followed by the second dense product gives the same array in both lines.
-/
import proofs.«126160_j3848290697594_1_alg».proof.Proof.RefLine
import proofs.«126160_j3848290697594_1_alg».proof.Proof.KerLine

set_option maxRecDepth 65536

noncomputable section

namespace Cert.Bridge

open Idealize.ShloMosaic Idealize.ShloMosaic.TcCoe Idealize.ShloMosaic.StableHlo
open Cert.KernelIdeal.Gen (hostOps0 hostOps1 hostOps2)
open Cert.KernelIdeal.Hand (op31 op59 kops)
open Cert.ReferenceIdeal.Line (rops)

/-- The reference's contents after its first 126 operations, from launch contents V'. -/
abbrev refCut (V' : Valuation Cert.ReferenceIdeal.τ Cert.ReferenceIdeal.sig (Elt Ideal)) :
    Valuation Cert.ReferenceIdeal.τ Cert.ReferenceIdeal.sig (Elt Ideal) :=
  after (List.take 52 (List.drop 74 (rops (F := Ideal)))) (after (List.take 74 (rops (F := Ideal))) V')

/-- The kernel program's contents after its second region, from launch contents V. -/
abbrev kerCut (V : Valuation Cert.KernelIdeal.τ Cert.KernelIdeal.sig (Elt Ideal)) :
    Valuation Cert.KernelIdeal.τ Cert.KernelIdeal.sig (Elt Ideal) :=
  after [op59] (after (hostOps0 ++ op31 :: hostOps1) V)

set_option maxHeartbeats 8000000 in
/-- The first layer's output — products, degrees, edge weights, neighbour sum, self term, bias: the first 74 operations of
    the reference, the kernel program's first stretch, product and second stretch — is the same array in both lines. -/
theorem layer1_agree
    (V : Valuation Cert.KernelIdeal.τ Cert.KernelIdeal.sig (Elt Ideal))
    (V' : Valuation Cert.ReferenceIdeal.τ Cert.ReferenceIdeal.sig (Elt Ideal))
    (h0 : V' (Proc.devRef .tc Cert.ReferenceIdeal.main_arg0) = V (Proc.devRef .tc Cert.KernelIdeal.main_arg0))
    (h1 : V' (Proc.devRef .tc Cert.ReferenceIdeal.main_arg1) = V (Proc.devRef .tc Cert.KernelIdeal.main_arg1))
    (h2 : V' (Proc.devRef .tc Cert.ReferenceIdeal.main_arg2) = V (Proc.devRef .tc Cert.KernelIdeal.main_arg2))
    (h5 : V' (Proc.devRef .tc Cert.ReferenceIdeal.main_arg5) = V (Proc.devRef .tc Cert.KernelIdeal.main_arg5)) :
    after (List.take 74 (rops (F := Ideal))) V' (Proc.devRef .tc Cert.ReferenceIdeal.main_v58)
      = after (hostOps0 ++ op31 :: hostOps1) V (Proc.devRef .tc Cert.KernelIdeal.main_v58) := by
  simp only [rops, List.take_succ_cons, List.take_zero, hostOps0, hostOps1, List.cons_append, List.nil_append]
  after_results_simp
  simp only [h0, h1, h2, h5]
  rfl

set_option maxHeartbeats 8000000 in
/-- The second weight array: written by no operation of either line's first part. -/
theorem carried_w2
    (V : Valuation Cert.KernelIdeal.τ Cert.KernelIdeal.sig (Elt Ideal))
    (V' : Valuation Cert.ReferenceIdeal.τ Cert.ReferenceIdeal.sig (Elt Ideal))
    (h3 : V' (Proc.devRef .tc Cert.ReferenceIdeal.main_arg3) = V (Proc.devRef .tc Cert.KernelIdeal.main_arg3)) :
    after (List.take 74 (rops (F := Ideal))) V' (Proc.devRef .tc Cert.ReferenceIdeal.main_arg3)
      = after (hostOps0 ++ op31 :: hostOps1) V (Proc.devRef .tc Cert.KernelIdeal.main_arg3) := by
  simp only [rops, List.take_succ_cons, List.take_zero, hostOps0, hostOps1, List.cons_append, List.nil_append]
  after_results_simp
  exact h3

set_option maxHeartbeats 8000000 in
/-- From contents that agree on the first layer's output and on the second weight array, the reference's next 52
    operations — the unit, the second dense product, then the second degrees and edge weights, which do not touch the
    product — and the kernel program's one operation for its second region leave the same array as the product's result. -/
theorem seg_h2
    (X : Valuation Cert.ReferenceIdeal.τ Cert.ReferenceIdeal.sig (Elt Ideal))
    (Y : Valuation Cert.KernelIdeal.τ Cert.KernelIdeal.sig (Elt Ideal))
    (e1 : X (Proc.devRef .tc Cert.ReferenceIdeal.main_v58) = Y (Proc.devRef .tc Cert.KernelIdeal.main_v58))
    (e2 : X (Proc.devRef .tc Cert.ReferenceIdeal.main_arg3) = Y (Proc.devRef .tc Cert.KernelIdeal.main_arg3)) :
    after (List.take 52 (List.drop 74 (rops (F := Ideal)))) X (Proc.devRef .tc Cert.ReferenceIdeal.main_v60)
      = after [op59] Y (Proc.devRef .tc Cert.KernelIdeal.main_v59) := by
  simp only [rops, List.take_succ_cons, List.take_zero, List.drop_succ_cons, List.drop_zero]
  after_results_simp
  simp only [e1, e2]
  rfl

/-- The second dense product's result is the same array in both lines. -/
theorem h2_agree
    (V : Valuation Cert.KernelIdeal.τ Cert.KernelIdeal.sig (Elt Ideal))
    (V' : Valuation Cert.ReferenceIdeal.τ Cert.ReferenceIdeal.sig (Elt Ideal))
    (h0 : V' (Proc.devRef .tc Cert.ReferenceIdeal.main_arg0) = V (Proc.devRef .tc Cert.KernelIdeal.main_arg0))
    (h1 : V' (Proc.devRef .tc Cert.ReferenceIdeal.main_arg1) = V (Proc.devRef .tc Cert.KernelIdeal.main_arg1))
    (h2 : V' (Proc.devRef .tc Cert.ReferenceIdeal.main_arg2) = V (Proc.devRef .tc Cert.KernelIdeal.main_arg2))
    (h3 : V' (Proc.devRef .tc Cert.ReferenceIdeal.main_arg3) = V (Proc.devRef .tc Cert.KernelIdeal.main_arg3))
    (h5 : V' (Proc.devRef .tc Cert.ReferenceIdeal.main_arg5) = V (Proc.devRef .tc Cert.KernelIdeal.main_arg5)) :
    refCut V' (Proc.devRef .tc Cert.ReferenceIdeal.main_v60) = kerCut V (Proc.devRef .tc Cert.KernelIdeal.main_v59) :=
  seg_h2 (after (List.take 74 (rops (F := Ideal))) V') (after (hostOps0 ++ op31 :: hostOps1) V)
    (layer1_agree V V' h0 h1 h2 h5) (carried_w2 V V' h3)

end Cert.Bridge

end
-- ==== Proof.Bridge2a.lean ====
/-
  What both lines carry to their last part, besides the second product's result: the two rows of the edge list, and two
  arguments (the second bias and the graph assignment) that no operation writes. Read at the cut — after the reference's
  first 126 operations, after the kernel program's second region — each is the same small function of the arguments.
-/
import proofs.«126160_j3848290697594_1_alg».proof.Proof.RefLine
import proofs.«126160_j3848290697594_1_alg».proof.Proof.KerLine

set_option maxRecDepth 65536

noncomputable section

namespace Cert.Bridge

open Idealize.ShloMosaic Idealize.ShloMosaic.TcCoe Idealize.ShloMosaic.StableHlo
open Cert.KernelIdeal.Gen (hostOps0 hostOps1)
open Cert.KernelIdeal.Hand (op31 op59)
open Cert.ReferenceIdeal.Line (rops)

set_option maxHeartbeats 8000000

/-- The source row of the edge list. -/
theorem carried_src
    (V : Valuation Cert.KernelIdeal.τ Cert.KernelIdeal.sig (Elt Ideal))
    (V' : Valuation Cert.ReferenceIdeal.τ Cert.ReferenceIdeal.sig (Elt Ideal))
    (h5 : V' (Proc.devRef .tc Cert.ReferenceIdeal.main_arg5) = V (Proc.devRef .tc Cert.KernelIdeal.main_arg5)) :
    after (List.take 52 (List.drop 74 (rops (F := Ideal)))) (after (List.take 74 (rops (F := Ideal))) V')
        (Proc.devRef .tc Cert.ReferenceIdeal.main_v1)
      = after [op59] (after (hostOps0 ++ op31 :: hostOps1) V) (Proc.devRef .tc Cert.KernelIdeal.main_v1) := by
  simp only [rops, List.take_succ_cons, List.take_zero, List.drop_succ_cons, List.drop_zero, hostOps0, hostOps1,
    List.cons_append, List.nil_append]
  after_results_simp
  simp only [h5]
  rfl

/-- The destination row of the edge list. -/
theorem carried_dst
    (V : Valuation Cert.KernelIdeal.τ Cert.KernelIdeal.sig (Elt Ideal))
    (V' : Valuation Cert.ReferenceIdeal.τ Cert.ReferenceIdeal.sig (Elt Ideal))
    (h5 : V' (Proc.devRef .tc Cert.ReferenceIdeal.main_arg5) = V (Proc.devRef .tc Cert.KernelIdeal.main_arg5)) :
    after (List.take 52 (List.drop 74 (rops (F := Ideal)))) (after (List.take 74 (rops (F := Ideal))) V')
        (Proc.devRef .tc Cert.ReferenceIdeal.main_v3)
      = after [op59] (after (hostOps0 ++ op31 :: hostOps1) V) (Proc.devRef .tc Cert.KernelIdeal.main_v3) := by
  simp only [rops, List.take_succ_cons, List.take_zero, List.drop_succ_cons, List.drop_zero, hostOps0, hostOps1,
    List.cons_append, List.nil_append]
  after_results_simp
  simp only [h5]
  rfl

/-- The second bias: written by no operation of either line. -/
theorem carried_bias
    (V : Valuation Cert.KernelIdeal.τ Cert.KernelIdeal.sig (Elt Ideal))
    (V' : Valuation Cert.ReferenceIdeal.τ Cert.ReferenceIdeal.sig (Elt Ideal))
    (h4 : V' (Proc.devRef .tc Cert.ReferenceIdeal.main_arg4) = V (Proc.devRef .tc Cert.KernelIdeal.main_arg4)) :
    after (List.take 52 (List.drop 74 (rops (F := Ideal)))) (after (List.take 74 (rops (F := Ideal))) V')
        (Proc.devRef .tc Cert.ReferenceIdeal.main_arg4)
      = after [op59] (after (hostOps0 ++ op31 :: hostOps1) V) (Proc.devRef .tc Cert.KernelIdeal.main_arg4) := by
  simp only [rops, List.take_succ_cons, List.take_zero, List.drop_succ_cons, List.drop_zero, hostOps0, hostOps1,
    List.cons_append, List.nil_append]
  after_results_simp
  exact h4

/-- The graph assignment: written by no operation of either line. -/
theorem carried_batch
    (V : Valuation Cert.KernelIdeal.τ Cert.KernelIdeal.sig (Elt Ideal))
    (V' : Valuation Cert.ReferenceIdeal.τ Cert.ReferenceIdeal.sig (Elt Ideal))
    (h6 : V' (Proc.devRef .tc Cert.ReferenceIdeal.main_arg6) = V (Proc.devRef .tc Cert.KernelIdeal.main_arg6)) :
    after (List.take 52 (List.drop 74 (rops (F := Ideal)))) (after (List.take 74 (rops (F := Ideal))) V')
        (Proc.devRef .tc Cert.ReferenceIdeal.main_arg6)
      = after [op59] (after (hostOps0 ++ op31 :: hostOps1) V) (Proc.devRef .tc Cert.KernelIdeal.main_arg6) := by
  simp only [rops, List.take_succ_cons, List.take_zero, List.drop_succ_cons, List.drop_zero, hostOps0, hostOps1,
    List.cons_append, List.nil_append]
  after_results_simp
  exact h6

end Cert.Bridge

end
-- ==== Proof.Bridge2b.lean ====
/-
  What both lines carry to their last part, continued: the node degrees and the edge weights. The reference computes them
  a second time (operations 91 to 126) where the kernel program keeps the ones of its first stretch; both are the same
  small function of the edge list alone — ones added at the destinations plus one; the inverse square root of that at the
  source times that at the destination.
-/
import proofs.«126160_j3848290697594_1_alg».proof.Proof.RefLine
import proofs.«126160_j3848290697594_1_alg».proof.Proof.KerLine

set_option maxRecDepth 65536

noncomputable section

namespace Cert.Bridge

open Idealize.ShloMosaic Idealize.ShloMosaic.TcCoe Idealize.ShloMosaic.StableHlo
open Cert.KernelIdeal.Gen (hostOps0 hostOps1)
open Cert.KernelIdeal.Hand (op31 op59)
open Cert.ReferenceIdeal.Line (rops)

set_option maxHeartbeats 8000000

/-- The node degrees: the reference's second computation against the kernel program's only one. -/
theorem carried_deg
    (V : Valuation Cert.KernelIdeal.τ Cert.KernelIdeal.sig (Elt Ideal))
    (V' : Valuation Cert.ReferenceIdeal.τ Cert.ReferenceIdeal.sig (Elt Ideal))
    (h5 : V' (Proc.devRef .tc Cert.ReferenceIdeal.main_arg5) = V (Proc.devRef .tc Cert.KernelIdeal.main_arg5)) :
    after (List.take 52 (List.drop 74 (rops (F := Ideal)))) (after (List.take 74 (rops (F := Ideal))) V')
        (Proc.devRef .tc Cert.ReferenceIdeal.main_v71)
      = after [op59] (after (hostOps0 ++ op31 :: hostOps1) V) (Proc.devRef .tc Cert.KernelIdeal.main_v14) := by
  simp only [rops, List.take_succ_cons, List.take_zero, List.drop_succ_cons, List.drop_zero, hostOps0, hostOps1,
    List.cons_append, List.nil_append]
  after_results_simp
  simp only [h5]
  rfl

/-- The edge weights: the reference's second computation against the kernel program's only one. -/
theorem carried_norm
    (V : Valuation Cert.KernelIdeal.τ Cert.KernelIdeal.sig (Elt Ideal))
    (V' : Valuation Cert.ReferenceIdeal.τ Cert.ReferenceIdeal.sig (Elt Ideal))
    (h5 : V' (Proc.devRef .tc Cert.ReferenceIdeal.main_arg5) = V (Proc.devRef .tc Cert.KernelIdeal.main_arg5)) :
    after (List.take 52 (List.drop 74 (rops (F := Ideal)))) (after (List.take 74 (rops (F := Ideal))) V')
        (Proc.devRef .tc Cert.ReferenceIdeal.main_v87)
      = after [op59] (after (hostOps0 ++ op31 :: hostOps1) V) (Proc.devRef .tc Cert.KernelIdeal.main_v30) := by
  simp only [rops, List.take_succ_cons, List.take_zero, List.drop_succ_cons, List.drop_zero, hostOps0, hostOps1,
    List.cons_append, List.nil_append]
  after_results_simp
  simp only [h5]
  rfl

end Cert.Bridge

end
-- ==== Proof.Bridge3.lean ====
/-
  The two lines, last part: the second layer's neighbour sum and the mean over each graph.

  From contents that agree on what this part reads — the second dense product's result, the two edge rows, the degrees, the
  edge weights (in the reference: the ones it computed a second time), the second bias and the graph assignment — the
  reference's last 49 operations and the kernel program's last stretch are the same operations in the same order, and
  leave equal arrays in the result buffers.
-/
import proofs.«126160_j3848290697594_1_alg».proof.Proof.RefLine
import proofs.«126160_j3848290697594_1_alg».proof.Proof.KerLine

set_option maxRecDepth 65536

noncomputable section

namespace Cert.Bridge

open Idealize.ShloMosaic Idealize.ShloMosaic.TcCoe Idealize.ShloMosaic.StableHlo
open Cert.KernelIdeal.Gen (hostOps2)
open Cert.ReferenceIdeal.Line (rops)

set_option maxHeartbeats 4000000 in
theorem tail_agree
    (X : Valuation Cert.ReferenceIdeal.τ Cert.ReferenceIdeal.sig (Elt Ideal))
    (Y : Valuation Cert.KernelIdeal.τ Cert.KernelIdeal.sig (Elt Ideal))
    (e1 : X (Proc.devRef .tc Cert.ReferenceIdeal.main_v60) = Y (Proc.devRef .tc Cert.KernelIdeal.main_v59))
    (e2 : X (Proc.devRef .tc Cert.ReferenceIdeal.main_v1) = Y (Proc.devRef .tc Cert.KernelIdeal.main_v1))
    (e3 : X (Proc.devRef .tc Cert.ReferenceIdeal.main_v3) = Y (Proc.devRef .tc Cert.KernelIdeal.main_v3))
    (e4 : X (Proc.devRef .tc Cert.ReferenceIdeal.main_v71) = Y (Proc.devRef .tc Cert.KernelIdeal.main_v14))
    (e5 : X (Proc.devRef .tc Cert.ReferenceIdeal.main_v87) = Y (Proc.devRef .tc Cert.KernelIdeal.main_v30))
    (e6 : X (Proc.devRef .tc Cert.ReferenceIdeal.main_arg4) = Y (Proc.devRef .tc Cert.KernelIdeal.main_arg4))
    (e7 : X (Proc.devRef .tc Cert.ReferenceIdeal.main_arg6) = Y (Proc.devRef .tc Cert.KernelIdeal.main_arg6)) :
    after (List.drop 52 (List.drop 74 (rops (F := Ideal)))) X (Proc.devRef .tc Cert.ReferenceIdeal.main_v126)
      = after hostOps2 Y (Proc.devRef .tc Cert.KernelIdeal.main_v98) := by
  simp only [rops, List.drop_succ_cons, List.drop_zero, hostOps2]
  after_results_simp
  simp only [e1, e2, e3, e4, e5, e6, e7]
  rfl

end Cert.Bridge

end
-- ==== Proof.Bridge.lean ====
/-
  The two programs' lines end at equal results.

  Both programs are now one straight line of host operations over their launch contents: the reference's own, and the
  idealized kernel program's with each tiled region replaced by the one operation it amounts to, spelled as the reference
  spells it. The two lines are the same operations in the same order — except that the reference computes the node
  degrees and edge weights a second time for its second layer, where the kernel program reuses the first computation:
  the same function of the edge list. Each line is cut where the second dense product's result (and, in the
  reference, the second degrees and edge weights) is complete. At the cut the two lines agree on everything the last part
  reads: the product's result, the edge rows, the degrees, the edge weights, the second bias and the graph assignment.
  The last part — the second layer's neighbour sum and the mean over each graph — is then the same function on both sides.
-/
import proofs.«126160_j3848290697594_1_alg».proof.Proof.Bridge1
import proofs.«126160_j3848290697594_1_alg».proof.Proof.Bridge2a
import proofs.«126160_j3848290697594_1_alg».proof.Proof.Bridge2b
import proofs.«126160_j3848290697594_1_alg».proof.Proof.Bridge3

set_option maxRecDepth 65536

noncomputable section

namespace Cert.Bridge

open Idealize.ShloMosaic Idealize.ShloMosaic.TcCoe Idealize.ShloMosaic.StableHlo
open Cert.KernelIdeal.Gen (hostOps0 hostOps1 hostOps2)
open Cert.KernelIdeal.Hand (op31 op59 kops)
open Cert.ReferenceIdeal.Line (rops)

/-- From contents that agree on the seven arguments, the reference's line and the kernel program's line leave equal
    arrays in their result buffers. -/
theorem lines_agree
    (V : Valuation Cert.KernelIdeal.τ Cert.KernelIdeal.sig (Elt Ideal))
    (V' : Valuation Cert.ReferenceIdeal.τ Cert.ReferenceIdeal.sig (Elt Ideal))
    (h0 : V' (Proc.devRef .tc Cert.ReferenceIdeal.main_arg0) = V (Proc.devRef .tc Cert.KernelIdeal.main_arg0))
    (h1 : V' (Proc.devRef .tc Cert.ReferenceIdeal.main_arg1) = V (Proc.devRef .tc Cert.KernelIdeal.main_arg1))
    (h2 : V' (Proc.devRef .tc Cert.ReferenceIdeal.main_arg2) = V (Proc.devRef .tc Cert.KernelIdeal.main_arg2))
    (h3 : V' (Proc.devRef .tc Cert.ReferenceIdeal.main_arg3) = V (Proc.devRef .tc Cert.KernelIdeal.main_arg3))
    (h4 : V' (Proc.devRef .tc Cert.ReferenceIdeal.main_arg4) = V (Proc.devRef .tc Cert.KernelIdeal.main_arg4))
    (h5 : V' (Proc.devRef .tc Cert.ReferenceIdeal.main_arg5) = V (Proc.devRef .tc Cert.KernelIdeal.main_arg5))
    (h6 : V' (Proc.devRef .tc Cert.ReferenceIdeal.main_arg6) = V (Proc.devRef .tc Cert.KernelIdeal.main_arg6)) :
    after (rops (F := Ideal)) V' (Proc.devRef .tc Cert.ReferenceIdeal.main_v126)
      = after kops V (Proc.devRef .tc Cert.KernelIdeal.main_v98) := by
  -- the reference's line in three pieces: first layer; unit, second product and second degrees; last part
  have eR : (rops (F := Ideal))
      = List.take 74 rops ++ (List.take 52 (List.drop 74 rops) ++ List.drop 52 (List.drop 74 rops)) := by
    rw [List.take_append_drop, List.take_append_drop]
  rw [eR, StableHlo.after_append (List.take 74 rops) _ V',
    StableHlo.after_append (List.take 52 (List.drop 74 rops)) _ _]
  -- the kernel program's line in the matching pieces
  simp only [kops]
  rw [StableHlo.after_append (hostOps0 ++ op31 :: hostOps1) (op59 :: hostOps2) V]
  exact tail_agree (refCut V') (kerCut V) (h2_agree V V' h0 h1 h2 h3 h5) (carried_src V V' h5) (carried_dst V V' h5)
    (carried_deg V V' h5) (carried_norm V V' h5) (carried_bias V V' h4) (carried_batch V V' h6)

end Cert.Bridge

end
-- ==== Proof.lean ====
/-
  A two-layer graph convolution followed by a mean over each graph: the tiled program against the array program.

  Both programs compute, for node features x, weights W1, W2, biases b1, b2, an edge list and a graph assignment:
  h1 = x·W1; a1 = A(h1) + b1 where A sums over every edge the source row scaled by (deg src · deg dst)^(-1/2) into the
  destination row and adds the row itself divided by its degree (the degree counting the self loop); h2 = elu(a1)·W2;
  a2 = A(h2) + b2; and the mean of a2's rows over each of the 64 graphs (divided by the node count, at least one).

  The tiled program computes the two dense products in 25 row blocks each, rounding to a shorter format on the way into the
  multiplier, and applies the exponential linear unit inside the second tile body as select(x > 0, x, exp x − 1); the
  array program uses whole-array products and the array library's spelling of the unit. At the exact instance a change of
  format is the identity, a row block of a product reads only its own rows of the left operand so the 25 blocks tile the
  whole-array product, a product into a zero accumulator is the host's product, and the two spellings of the unit agree at
  every extended real (expm1 x is exp x − 1 there; 1 · y = y). Everything else is the same host operations in the same
  order on both sides. No step needs the inputs finite, so the precondition is never opened.

  The three frames: the two kernel programs' are the generated frame certificates; the reference's is its run with the
  result dropped. The idealization rewrote nothing, so the preservation claim is trivial.
-/
import proofs.«126160_j3848290697594_1_alg».proof.Defs
import proofs.«126160_j3848290697594_1_alg».proof.Proof.Gen.Kernel
import proofs.«126160_j3848290697594_1_alg».proof.Proof.Gen.Kernel.Frame
import proofs.«126160_j3848290697594_1_alg».proof.Proof.Gen.KernelIdeal
import proofs.«126160_j3848290697594_1_alg».proof.Proof.Gen.KernelIdeal.Frame
import proofs.«126160_j3848290697594_1_alg».proof.Proof.Gen.ReferenceIdeal
import proofs.«126160_j3848290697594_1_alg».proof.Proof.Gen.Pre_finite_inputs
import proofs.«126160_j3848290697594_1_alg».proof.Proof.KerRun
import proofs.«126160_j3848290697594_1_alg».proof.Proof.RefKept
import proofs.«126160_j3848290697594_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and leaves its arguments as launched: its line writes none of them. -/
theorem frame_ri : Cert.frame_ReferenceIdeal := fun m ρ _ =>
  (θ_run Cert.ReferenceIdeal.defs _ _).mono (fun r h c =>
      ⟨(h c Cert.ReferenceIdeal.main_arg0).trans (Cert.ReferenceIdeal.Line.kept0 _),
       (h c Cert.ReferenceIdeal.main_arg1).trans (Cert.ReferenceIdeal.Line.kept1 _),
       (h c Cert.ReferenceIdeal.main_arg2).trans (Cert.ReferenceIdeal.Line.kept2 _),
       (h c Cert.ReferenceIdeal.main_arg3).trans (Cert.ReferenceIdeal.Line.kept3 _),
       (h c Cert.ReferenceIdeal.main_arg4).trans (Cert.ReferenceIdeal.Line.kept4 _),
       (h c Cert.ReferenceIdeal.main_arg5).trans (Cert.ReferenceIdeal.Line.kept5 _),
       (h c Cert.ReferenceIdeal.main_arg6).trans (Cert.ReferenceIdeal.Line.kept6 _)⟩)
    (Cert.ReferenceIdeal.Line.run (F := Ideal) m ρ)

/-- From memories agreeing on the arguments both programs run, and end with equal results: the kernel program's result is
    its one line's fold over the launch memory, the reference's is its own line's, and the two lines agree. -/
theorem algebraic : Cert.algebraic_KernelIdeal_ReferenceIdeal := by
  intro m ρ m' ρ' _ hagree
  refine ⟨fun c => Cert.KernelIdeal.Gen.W5 (F := Ideal) m ρ c (Proc.devRef .tc Cert.KernelIdeal.main_v98),
    Cert.KernelIdeal.Hand.run_value m ρ, ?_⟩
  refine (θ_run Cert.ReferenceIdeal.defs _ _).mono (fun r h c =>
      ⟨?_,
       (h c Cert.ReferenceIdeal.main_arg0).trans (Cert.ReferenceIdeal.Line.kept0 _),
       (h c Cert.ReferenceIdeal.main_arg1).trans (Cert.ReferenceIdeal.Line.kept1 _),
       (h c Cert.ReferenceIdeal.main_arg2).trans (Cert.ReferenceIdeal.Line.kept2 _),
       (h c Cert.ReferenceIdeal.main_arg3).trans (Cert.ReferenceIdeal.Line.kept3 _),
       (h c Cert.ReferenceIdeal.main_arg4).trans (Cert.ReferenceIdeal.Line.kept4 _),
       (h c Cert.ReferenceIdeal.main_arg5).trans (Cert.ReferenceIdeal.Line.kept5 _),
       (h c Cert.ReferenceIdeal.main_arg6).trans (Cert.ReferenceIdeal.Line.kept6 _)⟩)
    (Cert.ReferenceIdeal.Line.run (F := Ideal) m' ρ')
  obtain ⟨a0, a1, a2, a3, a4, a5, a6⟩ := hagree c
  refine (h c Cert.ReferenceIdeal.main_v126).trans ?_
  show _ = Cert.KernelIdeal.Gen.W5 (F := Ideal) m ρ c (Proc.devRef .tc Cert.KernelIdeal.main_v98)
  rw [Cert.KernelIdeal.Hand.W5_eq m ρ c]
  exact Cert.Bridge.lines_agree _ _ a0 a1 a2 a3 a4 a5 a6

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
